-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S64x96 : Shape := ⟨2, ![64, 96]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000x32 .f32) (main_arg3 : FVec F S64x96 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S64x96 .f32 := Host.absf main_arg3
  let main_cst_2 : FVec F S_ .f32 := constant S_ .f32 0x7F800000#32
  let main_v10 : FVec F S64x96 .f32 := broadcastInDim S64x96 ![] bcast_S_S64x96 main_cst_2
  let main_v11 : IVec S64x96 1 := cmpf .olt main_v9 main_v10
  let main_c_3 : IVec S_ 1 := constantI S_ 1 1#1
  let main_v12 : IVec S_ 1 := (fun x v => Host.reduce IntOp.andi x v reducesTo_S64x96_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S64x96 : Shape := ⟨2, ![64, 96]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x33 : Shape := ⟨2, ![800000, 33]⟩
abbrev S50000x33 : Shape := ⟨2, ![50000, 33]⟩
abbrev S50000x32 : Shape := ⟨2, ![50000, 32]⟩
abbrev S50000x1 : Shape := ⟨2, ![50000, 1]⟩
abbrev S50000 : Shape := ⟨1, ![50000]⟩
abbrev S64x64 : Shape := ⟨2, ![64, 64]⟩
abbrev S64x32 : Shape := ⟨2, ![64, 32]⟩
abbrev S32x64 : Shape := ⟨2, ![32, 64]⟩
abbrev S10000x64 : Shape := ⟨2, ![10000, 64]⟩
abbrev S10000x32 : Shape := ⟨2, ![10000, 32]⟩
abbrev S1x64 : Shape := ⟨2, ![1, 64]⟩

abbrev nBuf : Space → Nat
  | .hbm => 59
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S64x96, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000x1, .f32⟩
  | .hbm, ⟨24, _⟩ => ⟨S800000x33, .f32⟩
  | .hbm, ⟨25, _⟩ => ⟨S_, .f32⟩
  | .hbm, ⟨26, _⟩ => ⟨S50000x33, .f32⟩
  | .hbm, ⟨27, _⟩ => ⟨S800000x1, .i32⟩
  | .hbm, ⟨28, _⟩ => ⟨S50000x33, .f32⟩
  | .hbm, ⟨29, _⟩ => ⟨S50000x32, .f32⟩
  | .hbm, ⟨30, _⟩ => ⟨S50000x1, .f32⟩
  | .hbm, ⟨31, _⟩ => ⟨S50000, .f32⟩
  | .hbm, ⟨32, _⟩ => ⟨S50000x64, .bf16⟩
  | .hbm, ⟨33, _⟩ => ⟨S50000x32, .bf16⟩
  | .hbm, ⟨34, _⟩ => ⟨S64x64, .f32⟩
  | .hbm, ⟨35, _⟩ => ⟨S64x32, .f32⟩
  | .hbm, ⟨36, _⟩ => ⟨S64x64, .f32⟩
  | .hbm, ⟨37, _⟩ => ⟨S64x64, .bf16⟩
  | .hbm, ⟨38, _⟩ => ⟨S32x64, .f32⟩
  | .hbm, ⟨39, _⟩ => ⟨S32x64, .bf16⟩
  | .hbm, ⟨40, _⟩ => ⟨S50000x64, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x64, .f32⟩
  | .hbm, ⟨52, _⟩ => ⟨S50000x64, .f32⟩
  | .hbm, ⟨53, _⟩ => ⟨S1x64, .f32⟩
  | .hbm, ⟨54, _⟩ => ⟨S50000x1, .f32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S50000x64, .f32⟩
  | .local _ .vmem, ⟨0, _⟩ => ⟨S10000x64, .bf16⟩
  | .local _ .vmem, ⟨1, _⟩ => ⟨S10000x64, .bf16⟩
  | .local _ .vmem, ⟨2, _⟩ => ⟨S10000x32, .bf16⟩
  | .local _ .vmem, ⟨3, _⟩ => ⟨S10000x32, .bf16⟩
  | .local _ .vmem, ⟨4, _⟩ => ⟨S64x64, .bf16⟩
  | .local _ .vmem, ⟨5, _⟩ => ⟨S32x64, .bf16⟩
  | .local _ .vmem, ⟨6, _⟩ => ⟨S10000x64, .f32⟩
  | .local _ .vmem, ⟨7, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  concatenates_S800000x32_S800000x1_S800000x33_d1 : Shape.Concatenates [S800000x32, S800000x1] S800000x33 1
  bcast_S_S50000x33 : S_.BroadcastsInDim S50000x33 (![] : Fin 0 → Fin S50000x33.rank)
  slices_S50000x33_S50000x32_0_0 : S50000x33.Slices ![0, 0] S50000x32
  slices_S50000x33_S50000x1_0_32 : S50000x33.Slices ![0, 32] S50000x1
  shapeCasts_S50000x1_S50000 : S50000x1.ShapeCasts S50000
  bitsLt_bf16_f32 : FTy.bits .bf16 < FTy.bits .f32
  slices_S64x96_S64x64_0_0 : S64x96.Slices ![0, 0] S64x64
  slices_S64x96_S64x32_0_64 : S64x96.Slices ![0, 64] S64x32
  transposes_S64x64_S64x64_1_0 : S64x64.Transposes [1, 0] S64x64
  transposes_S64x32_S32x64_1_0 : S64x32.Transposes [1, 0] S32x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x33_S800000x1_S800000x33_1_0_0_1_wf : ScatterDims.WF S50000x33 S800000x1 S800000x33 [1] [0] [0] 1
  dot_S10000x64_S64x64_S10000x64_1_0_0_1_n_n_wf : DotDims.WF S10000x64 S64x64 S10000x64 [1] [0] [0] [1] [] []
  dot_S10000x32_S32x64_S10000x64_1_0_0_1_n_n_wf : DotDims.WF S10000x32 S32x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .bf16 = 32 ∨ (Rect.block (s := S50000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S50000x32.size a
  hwx0_1 : ∀ i : grid0.Coords, EltTy.bits .bf16 = 32 ∨ (Rect.block (s := S50000x32) S10000x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .bf16 = 32 ∨ (Rect.block (s := S32x64) S32x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S50000x64.size a
  hwx0_4 : ∀ i : grid0.Coords, EltTy.bits .f32 = 32 ∨ (Rect.block (s := S50000x64) S10000x64.size (cc0_transform_4 i) (hinb0_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x33_S800000x1_S800000x33_1_0_0_1 : ScatterDims S50000x33 S800000x1 S800000x33 where
  updateWindowDims := [1]
  insertedWindowDims := [0]
  scatterDimsToOperandDims := [0]
  indexVectorDim := 1
  wf := scatter_S50000x33_S800000x1_S800000x33_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S64x96 : Shape := ⟨2, ![64, 96]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S96x64 : Shape := ⟨2, ![96, 64]⟩
abbrev S1x64 : Shape := ⟨2, ![1, 64]⟩
abbrev S50000 : Shape := ⟨1, ![50000]⟩
abbrev S50000x1 : Shape := ⟨2, ![50000, 1]⟩

abbrev nBuf : Space → Nat
  | .hbm => 40
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S64x96, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S800000x96, .f32⟩
  | .hbm, ⟨19, _⟩ => ⟨S96x64, .f32⟩
  | .hbm, ⟨20, _⟩ => ⟨S800000x64, .f32⟩
  | .hbm, ⟨21, _⟩ => ⟨S1x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x64, .f32⟩
  | .hbm, ⟨39, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  transposes_S64x96_S96x64_1_0 : S64x96.Transposes [1, 0] S96x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x96_S96x64_S800000x64_1_0_0_1_n_n_wf : DotDims.WF S800000x96 S96x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.LibRowScatterAdd.lean ====
/-
  A float scatter-add whose scatter indices name ROWS, read at an index, at the exact instance.

  The operand is a table of `N` rows (of `C` entries each, or of one entry), the scatter indices a column of `E`
  words, the updates `E` rows of the same width. Update row `e` lands on operand row `n` exactly when its index
  word, read as a signed integer, is `n`; an index word outside `[0, N)` names no row and its update is dropped.
  So entry `(n, c)` of the result is the operand's entry plus the sum, over the update rows `e` that land on `n`,
  of the update's entry `(e, c)`.
-/
import Idealize.ShloMosaic.PureOps.Ideal
import Idealize.ShloMosaic.Lib.ValueIdx

noncomputable section

namespace RowScatter

open Idealize.ShloMosaic Idealize.ShloMosaic.ValueIdx

/-- The update rows that land on operand row `n`: those whose index word, read signed, is `n`. -/
def landing {E w : Nat} (idx : IVec (⟨2, ![E, 1]⟩ : Shape) w) (n : Nat) : Finset (Fin E) :=
  Finset.univ.filter fun e => (idx (ix2 e (0 : Fin 1))).toInt = (n : Int)

/-- An update index lands on operand index `i` exactly when, on every operand axis, the window's start plus the window
    coordinate is `i`'s coordinate (as integers: a start may be negative or past the end, and then no `i` fits). -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      have hv : (d.start j idx a + (d.window j a : Int)).toNat = (i a).val := by rw [← hi]
      omega
    · intro hi
      funext a
      refine Fin.ext ?_
      have h1 := hi a
      show (d.start j idx a + (d.window j a : Int)).toNat = (i a).val
      omega
  · rename_i h
    constructor
    · intro hi; cases hi
    · intro hi
      refine absurd (fun a => ?_) h
      have h1 := hi a
      have h2 := (i a).isLt
      omega

/-! ## Rows of `C` entries -/

/-- The dimension numbers of a scatter of whole rows: the updates' axis 1 is the window axis, going to the operand's
    axis 1; the operand's axis 0 is the scattered (inserted) one, named by the one component of each index vector. -/
private abbrev rowsDims (N C E : Nat)
    (wf : ScatterDims.WF (⟨2, ![N, C]⟩ : Shape) (⟨2, ![E, 1]⟩ : Shape) (⟨2, ![E, C]⟩ : Shape) [1] [0] [0] 1) :
    ScatterDims (⟨2, ![N, C]⟩ : Shape) (⟨2, ![E, 1]⟩ : Shape) (⟨2, ![E, C]⟩ : Shape) where
  updateWindowDims := [1]
  insertedWindowDims := [0]
  scatterDimsToOperandDims := [0]
  indexVectorDim := 1
  wf := wf

section Rows
variable {N C E w : Nat}
  (wf : ScatterDims.WF (⟨2, ![N, C]⟩ : Shape) (⟨2, ![E, 1]⟩ : Shape) (⟨2, ![E, C]⟩ : Shape) [1] [0] [0] 1)
  (j : (⟨2, ![E, C]⟩ : Shape).Idx) (idx : IVec (⟨2, ![E, 1]⟩ : Shape) w)

/-- On the row axis the window starts at the index word of the update's row, read signed. -/
private theorem rows_start0 : (rowsDims N C E wf).start j idx 0 = (idx (ix2 (j 0) (0 : Fin 1))).toInt := by
  unfold ScatterDims.start
  rw [dif_pos (show (0 : Fin 2) ∈ (rowsDims N C E wf).scatterDimsToOperandDims from List.mem_singleton.mpr rfl)]
  have hsi : (rowsDims N C E wf).siIdx j ⟨List.idxOf (0 : Fin 2) (rowsDims N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the entry axis the window starts at 0: no index component names it. -/
private theorem rows_start1 : (rowsDims N C E wf).start j idx 1 = 0 := by
  unfold ScatterDims.start
  have h : ¬ (1 : Fin 2) ∈ (rowsDims N C E wf).scatterDimsToOperandDims :=
    show ¬ (1 : Fin 2) ∈ ([0] : List (Fin 2)) from by decide
  rw [dif_neg h]

/-- The row axis is inserted: its window coordinate is 0. -/
private theorem rows_window0 : (rowsDims N C E wf).window j 0 = 0 := by
  unfold ScatterDims.window
  have h : ¬ (0 : Fin 2) ∈ (rowsDims N C E wf).sKept :=
    show ¬ (0 : Fin 2) ∈ ([1] : List (Fin 2)) from by decide
  rw [dif_neg h]

/-- The entry axis is the window axis: its window coordinate is the update's entry coordinate. -/
private theorem rows_window1 : (rowsDims N C E wf).window j 1 = (j 1).val := by
  unfold ScatterDims.window
  have h : (1 : Fin 2) ∈ (rowsDims N C E wf).sKept :=
    show (1 : Fin 2) ∈ ([1] : List (Fin 2)) from by decide
  rw [dif_pos h]
  rfl

end Rows

/-- An update entry `j` lands on entry `(n, c)` exactly when its row's index word is `n` and its entry coordinate is `c`. -/
private theorem rows_lands_iff {N C E w : Nat}
    (wf : ScatterDims.WF (⟨2, ![N, C]⟩ : Shape) (⟨2, ![E, 1]⟩ : Shape) (⟨2, ![E, C]⟩ : Shape) [1] [0] [0] 1)
    (j : (⟨2, ![E, C]⟩ : Shape).Idx) (idx : IVec (⟨2, ![E, 1]⟩ : Shape) w) (n : Fin N) (c : Fin C) :
    (rowsDims N C E wf).resultIdx? j idx = some (ix2 n c) ↔
      (idx (ix2 (j 0) (0 : Fin 1))).toInt = (n.val : Int) ∧ (j 1).val = c.val := by
  rw [resultIdx?_eq_some_iff]
  constructor
  · intro h
    have h0 : (rowsDims N C E wf).start j idx 0 + ((rowsDims N C E wf).window j 0 : Int) = (n.val : Int) := h 0
    have h1 : (rowsDims N C E wf).start j idx 1 + ((rowsDims N C E wf).window j 1 : Int) = (c.val : Int) := h 1
    rw [rows_start0, rows_window0] at h0
    rw [rows_start1, rows_window1] at h1
    exact ⟨by omega, by omega⟩
  · rintro ⟨h0, h1⟩ a
    match a with
    | ⟨0, _⟩ =>
      show (rowsDims N C E wf).start j idx 0 + ((rowsDims N C E wf).window j 0 : Int) = (n.val : Int)
      rw [rows_start0, rows_window0]; omega
    | ⟨1, _⟩ =>
      show (rowsDims N C E wf).start j idx 1 + ((rowsDims N C E wf).window j 1 : Int) = (c.val : Int)
      rw [rows_start1, rows_window1]; omega

private theorem rows_apply {N C E w : Nat}
    (wf : ScatterDims.WF (⟨2, ![N, C]⟩ : Shape) (⟨2, ![E, 1]⟩ : Shape) (⟨2, ![E, C]⟩ : Shape) [1] [0] [0] 1)
    (x : (⟨2, ![N, C]⟩ : Shape).Idx → EReal) (idx : IVec (⟨2, ![E, 1]⟩ : Shape) w)
    (upd : (⟨2, ![E, C]⟩ : Shape).Idx → EReal) (n : Fin N) (c : Fin C) :
    Ideal.hostScatterAdd (rowsDims N C E wf) x idx upd (ix2 n c)
      = x (ix2 n c) + ∑ e ∈ landing idx n.val, upd (ix2 e c) := by
  unfold Ideal.hostScatterAdd
  congr 1
  refine Finset.sum_nbij' (fun j => (j 0 : Fin E)) (fun e => ix2 e c) ?_ ?_ ?_ ?_ ?_
  · intro j hj
    have h := (rows_lands_iff wf j idx n c).1 (Finset.mem_filter.1 hj).2
    exact Finset.mem_filter.2 ⟨Finset.mem_univ _, h.1⟩
  · intro e he
    have h := (Finset.mem_filter.1 he).2
    exact Finset.mem_filter.2 ⟨Finset.mem_univ _, (rows_lands_iff wf (ix2 e c) idx n c).2 ⟨h, rfl⟩⟩
  · intro j hj
    have h := (rows_lands_iff wf j idx n c).1 (Finset.mem_filter.1 hj).2
    have hc : (j 1 : Fin C) = c := Fin.ext h.2
    rw [← hc]
    exact (eq_ix2 j).symm
  · intro e _
    rfl
  · intro j hj
    have h := (rows_lands_iff wf j idx n c).1 (Finset.mem_filter.1 hj).2
    have hc : (j 1 : Fin C) = c := Fin.ext h.2
    rw [← hc]
    exact congrArg upd (eq_ix2 j)

/-- Rows of `C` entries: entry `(n, c)` of the scatter-add is the operand's entry plus the sum of the entries `(e, c)`
    of the update rows `e` landing on row `n`. -/
theorem scatterAdd_rows_apply {N C E w : Nat}
    (d : ScatterDims (⟨2, ![N, C]⟩ : Shape) (⟨2, ![E, 1]⟩ : Shape) (⟨2, ![E, C]⟩ : Shape))
    (h1 : d.updateWindowDims = [1]) (h2 : d.insertedWindowDims = [0])
    (h3 : d.scatterDimsToOperandDims = [0]) (h4 : d.indexVectorDim = 1)
    (x : (⟨2, ![N, C]⟩ : Shape).Idx → EReal) (idx : IVec (⟨2, ![E, 1]⟩ : Shape) w)
    (upd : (⟨2, ![E, C]⟩ : Shape).Idx → EReal) (n : Fin N) (c : Fin C) :
    Ideal.hostScatterAdd d x idx upd (ix2 n c) = x (ix2 n c) + ∑ e ∈ landing idx n.val, upd (ix2 e c) := by
  obtain ⟨uw, iw, sd, iv, wf⟩ := d
  obtain rfl : uw = [1] := h1
  obtain rfl : iw = [0] := h2
  obtain rfl : sd = [0] := h3
  obtain rfl : iv = 1 := h4
  exact rows_apply wf x idx upd n c

/-! ## Rows of one entry -/

/-- The dimension numbers of a scatter of single entries into a vector: no window axis; the operand's one axis is the
    scattered (inserted) one, named by the one component of each index vector. -/
private abbrev vecDims (N E : Nat)
    (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) where
  updateWindowDims := []
  insertedWindowDims := [0]
  scatterDimsToOperandDims := [0]
  indexVectorDim := 1
  wf := wf

section Vec
variable {N E w : Nat}
  (wf : ScatterDims.WF (⟨1, ![N]⟩ : Shape) (⟨2, ![E, 1]⟩ : Shape) (⟨1, ![E]⟩ : Shape) [] [0] [0] 1)
  (j : (⟨1, ![E]⟩ : Shape).Idx) (idx : IVec (⟨2, ![E, 1]⟩ : Shape) w)

/-- On the one operand axis the window starts at the update's index word, read signed. -/
private theorem vec_start0 : (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: its window coordinate is 0. -/
private theorem vec_window0 : (vecDims N E wf).window j 0 = 0 := by
  unfold ScatterDims.window
  have h : ¬ (0 : Fin 1) ∈ (vecDims N E wf).sKept :=
    show ¬ (0 : Fin 1) ∈ ([] : List (Fin 1)) from by decide
  rw [dif_neg h]

end Vec

/-- An update `j` lands on entry `n` exactly when its index word is `n`. -/
private theorem vec_lands_iff {N E w : Nat}
    (wf : ScatterDims.WF (⟨1, ![N]⟩ : Shape) (⟨2, ![E, 1]⟩ : Shape) (⟨1, ![E]⟩ : Shape) [] [0] [0] 1)
    (j : (⟨1, ![E]⟩ : Shape).Idx) (idx : IVec (⟨2, ![E, 1]⟩ : Shape) w) (n : Fin N) :
    (vecDims N E wf).resultIdx? j idx = some (ix1 n) ↔ (idx (ix2 (j 0) (0 : Fin 1))).toInt = (n.val : Int) := by
  rw [resultIdx?_eq_some_iff]
  constructor
  · intro h
    have h0 : (vecDims N E wf).start j idx 0 + ((vecDims N E wf).window j 0 : Int) = (n.val : Int) := h 0
    rw [vec_start0, vec_window0] at h0
    omega
  · intro h0 a
    match a with
    | ⟨0, _⟩ =>
      show (vecDims N E wf).start j idx 0 + ((vecDims N E wf).window j 0 : Int) = (n.val : Int)
      rw [vec_start0, vec_window0]; omega

private theorem vec_apply {N E w : Nat}
    (wf : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w)
    (upd : (⟨1, ![E]⟩ : Shape).Idx → EReal) (n : Fin N) :
    Ideal.hostScatterAdd (vecDims N E wf) x idx upd (ix1 n) = x (ix1 n) + ∑ e ∈ landing idx n.val, upd (ix1 e) := by
  unfold Ideal.hostScatterAdd
  congr 1
  refine Finset.sum_nbij' (fun j => (j 0 : Fin E)) (fun e => ix1 e) ?_ ?_ ?_ ?_ ?_
  · intro j hj
    have h := (vec_lands_iff wf j idx n).1 (Finset.mem_filter.1 hj).2
    exact Finset.mem_filter.2 ⟨Finset.mem_univ _, h⟩
  · intro e he
    have h := (Finset.mem_filter.1 he).2
    exact Finset.mem_filter.2 ⟨Finset.mem_univ _, (vec_lands_iff wf (ix1 e) idx n).2 h⟩
  · intro j _
    exact (eq_ix1 j).symm
  · intro e _
    rfl
  · intro j _
    exact congrArg upd (eq_ix1 j)

/-- Rows of one entry (a vector operand): entry `n` of the scatter-add is the operand's entry plus the sum of the
    updates `e` landing on `n`. -/
theorem scatterAdd_vec_apply {N E w : Nat}
    (d : ScatterDims (⟨1, ![N]⟩ : Shape) (⟨2, ![E, 1]⟩ : Shape) (⟨1, ![E]⟩ : Shape))
    (h1 : d.updateWindowDims = []) (h2 : d.insertedWindowDims = [0])
    (h3 : d.scatterDimsToOperandDims = [0]) (h4 : d.indexVectorDim = 1)
    (x : (⟨1, ![N]⟩ : Shape).Idx → EReal) (idx : IVec (⟨2, ![E, 1]⟩ : Shape) w)
    (upd : (⟨1, ![E]⟩ : Shape).Idx → EReal) (n : Fin N) :
    Ideal.hostScatterAdd d x idx upd (ix1 n) = x (ix1 n) + ∑ e ∈ landing idx n.val, upd (ix1 e) := by
  obtain ⟨uw, iw, sd, iv, wf⟩ := d
  obtain rfl : uw = [] := h1
  obtain rfl : iw = [0] := h2
  obtain rfl : sd = [0] := h3
  obtain rfl : iv = 1 := h4
  exact vec_apply wf x idx upd n

end RowScatter

end
-- ==== Proof.MeanSpec.lean ====
/-
  The mean, over the edges arriving at a node, of a linear map of each edge's joined features — stated twice, as two
  arrangements of the same arithmetic over the same arrays.

  `xs` holds one row of 64 node features per edge (the features of the edge's source node), `ef` one row of 32 edge
  features per edge, `dst` one index word per edge (the node the edge arrives at), `w` a 64 × 96 matrix and `b` a
  vector of 64. Edge `e`'s joined features are its 64 node features followed by its 32 edge features.

  * `meanOfMapped`: map every edge's joined features through `w` and add `b`; sum the mapped rows of the edges
    arriving at node `n`; divide by the number of those edges, or by one when there are none.
  * `mappedOfSums`: sum the node features and the edge features of the edges arriving at `n` first; map the two sums
    through the two column blocks of `w`; multiply by the reciprocal of the count (or of one); add `b` when at
    least one edge arrives (`b` times the smaller of the count and one).

  Over finite entries the two agree: the map is linear, so it commutes with the sum over the arriving edges, the sum
  of `b` over `c` edges is `c · b`, and for a count `c` (a natural number) `c / max c 1 = min c 1`.
-/
import proofs.«174265_j88227218195146_2_alg».proof.Proof.LibRowScatterAdd

noncomputable section

namespace EdgeMean

open Idealize.ShloMosaic Idealize.ShloMosaic.ValueIdx

variable (xs : (⟨2, ![800000, 64]⟩ : Shape).Idx → EReal) (ef : (⟨2, ![800000, 32]⟩ : Shape).Idx → EReal)
  (w : (⟨2, ![64, 96]⟩ : Shape).Idx → EReal) (b : (⟨1, ![64]⟩ : Shape).Idx → EReal)
  (dst : IVec (⟨2, ![800000, 1]⟩ : Shape) 32)

/-- The edges arriving at node `n`: those whose index word, read signed, is `n`. -/
abbrev arriving (n : Fin 50000) : Finset (Fin 800000) := RowScatter.landing dst n.val

/-- How many edges arrive at node `n`, as a sum of ones. -/
def count (n : Fin 50000) : EReal := ∑ _e ∈ arriving dst n, (1 : EReal)

/-- Edge `e`'s joined feature `k`: its node feature `k` for `k < 64`, its edge feature `k - 64` from there on. -/
def joined (e : Fin 800000) (k : Fin 96) : EReal :=
  if h : k.val < 64 then xs (ix2 e (⟨k.val, h⟩ : Fin 64)) else ef (ix2 e (⟨k.val - 64, by omega⟩ : Fin 32))

/-- Map each arriving edge, sum the mapped rows, divide by the count (or by one). -/
def meanOfMapped (n : Fin 50000) (o : Fin 64) : EReal :=
  Ideal.div (∑ e ∈ arriving dst n, ((∑ k : Fin 96, joined xs ef e k * w (ix2 o k)) + b (ix1 o)))
    (max (count dst n) 1)

/-- Sum the arriving edges' features, map the sums, scale by the reciprocal of the count (or of one), add `b` when
    an edge arrives. -/
def mappedOfSums (n : Fin 50000) (o : Fin 64) : EReal :=
  ((∑ k : Fin 64, (∑ e ∈ arriving dst n, xs (ix2 e k)) * w (ix2 o (⟨k.val, by omega⟩ : Fin 96)))
      + (∑ k : Fin 32, (∑ e ∈ arriving dst n, ef (ix2 e k)) * w (ix2 o (⟨64 + k.val, by omega⟩ : Fin 96))))
    * Ideal.div 1 (max (count dst n) 1)
    + b (ix1 o) * min (count dst n) 1

/-- What the matrix unit leaves of two row tables `A` (64 columns) and `B` (32 columns) and two weight tables `C`
    (64 × 64) and `D` (32 × 64): entry `(n, o)` is the sum over `k` of `A (n, k) · C (k, o)` plus the sum over `k` of
    `B (n, k) · D (k, o)`. -/
def twoProducts (A : (⟨2, ![50000, 64]⟩ : Shape).Idx → EReal) (B : (⟨2, ![50000, 32]⟩ : Shape).Idx → EReal)
    (C : (⟨2, ![64, 64]⟩ : Shape).Idx → EReal) (D : (⟨2, ![32, 64]⟩ : Shape).Idx → EReal) :
    (⟨2, ![50000, 64]⟩ : Shape).Idx → EReal := fun i =>
  (∑ k : Fin 64, A (ix2 (i 0) k) * C (ix2 k (i 1))) + (∑ k : Fin 32, B (ix2 (i 0) k) * D (ix2 k (i 1)))

end EdgeMean

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.RegionPayload.lean ====
/-
  The body's arithmetic at one output entry.

  At every grid point the body reads a block of 10000 rows of the 64-column table and of the 32-column table, the
  whole 64 × 64 and 32 × 64 weight tables, multiplies the first block by the first weight table and the second block
  by the second, each product into a zero accumulator, and adds the two products.  At the ideal values — every
  operation exact — entry (p, q) of what it stores is therefore

      (sum over k < 64 of x0 (p, k) · x2 (k, q)) + (sum over k < 32 of x1 (p, k) · x3 (k, q)).

  The shape casts in the body go from a shape to itself and are the identity; the two contractions are plain
  "rows × contraction times contraction × columns" products, read at an index as a sum over the contraction.
-/
import proofs.«174265_j88227218195146_2_alg».proof.Proof.Gen.KernelIdeal.Skeleton
import proofs.«174265_j88227218195146_2_alg».proof.Proof.LibPlainDot
import Idealize.ShloMosaic.Lib.Pipeline.Value
import Idealize.ShloMosaic.Lib.ValueIdx
import Idealize.ShloMosaic.PureOps.Ideal.Laws

noncomputable section

namespace Cert.KernelIdeal.Region

open Cert.KernelIdeal Cert.KernelIdeal.Gen Idealize.ShloMosaic Idealize.ShloMosaic.ValueIdx

/-- The printed dimension numbers of the first product are the plain 10000 × 64 by 64 × 64 ones. -/
theorem dims_nodes : dot_S10000x64_S64x64_S10000x64_1_0_0_1_n_n = DotDims.plain 10000 64 64 := rfl

/-- The printed dimension numbers of the second product are the plain 10000 × 32 by 32 × 64 ones. -/
theorem dims_edges : dot_S10000x32_S32x64_S10000x64_1_0_0_1_n_n = DotDims.plain 10000 32 64 := rfl

/-- Entry (p, q) of what the body stores: the two contractions, added. -/
theorem payload_apply (x0 : Vec Ideal S10000x64 .bf16) (x1 : Vec Ideal S10000x32 .bf16)
    (x2 : Vec Ideal S64x64 .bf16) (x3 : Vec Ideal S32x64 .bf16) (p : Fin 10000) (q : Fin 64) :
    k0_pay1 x0 x1 x2 x3 (ix2 p q)
      = (∑ k : Fin 64, x0 (ix2 p k) * x2 (ix2 k q)) + (∑ k : Fin 32, x1 (ix2 p k) * x3 (ix2 k q)) := by
  unfold k0_pay1
  simp only [shapeCast_self]
  rw [dims_nodes, dims_edges]
  refine (addf_apply _ _ (ix2 p q)).trans ?_
  rw [Cert.Lib.PlainDot.matmul_plain_zero_apply, Cert.Lib.PlainDot.matmul_plain_zero_apply]

end Cert.KernelIdeal.Region

end
-- ==== Proof.RegionValue.lean ====
/-
  What the region's output array holds after the run.

  The grid has five points.  Point t stages rows 10000·t … 10000·t + 9999 of the two row tables (64 and 32 columns),
  the whole 64 × 64 and 32 × 64 weight tables, and writes back rows 10000·t … 10000·t + 9999 of the 50000 × 64 output.
  Entry (p, q) of what point t writes is the body's arithmetic on its blocks: the sum over k < 64 of
  (row 10000·t + p of the first table at k) · (first weights at (k, q)) plus the sum over k < 32 of
  (row 10000·t + p of the second table at k) · (second weights at (k, q)) — that is entry (10000·t + p, q) of
  `EdgeMean.twoProducts` of the four arrays as the region finds them.  Every row r < 50000 lies in the block of
  point r / 10000, so the five blocks fill the array and it ends holding `twoProducts` everywhere.
-/
import proofs.«174265_j88227218195146_2_alg».proof.Proof.Gen.KernelIdeal.Frame
import proofs.«174265_j88227218195146_2_alg».proof.Proof.MeanSpec
import proofs.«174265_j88227218195146_2_alg».proof.Proof.LibPlainDot
import proofs.«174265_j88227218195146_2_alg».proof.Proof.RegionPayload
import Idealize.ShloMosaic.Lib.Pipeline.Value
import Idealize.ShloMosaic.Lib.ValueIdx
import Idealize.ShloMosaic.PureOps.Ideal.Laws

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

theorem zeros : (![0, 0] : Fin 2 → Nat) = fun _ => 0 := funext fun a => by fin_cases a <;> rfl

/-- The printed index maps, decided over the five points: the two row tables and the output take block t on the row
    axis and block 0 on the column axis; the two weight tables take block (0, 0) at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A grid point is one of five. -/
theorem point_lt (t : Fin cfg0.N) : t.val < 5 := by
  exact Nat.lt_of_lt_of_eq t.isLt N_0

/-- Row p of point t's block is row 10000·t + p of the array. -/
def row (t : Fin cfg0.N) (p : Fin 10000) : Fin 50000 :=
  ⟨t.val * 10000 + p.val, by have := point_lt t; have := p.isLt; omega⟩

/-- Where an entry of point t's block of the first row table sits in the table. -/
theorem emb_nodes (t : Fin cfg0.N) (p : Fin 10000) (k : Fin 64) :
    (((cfg0.win 0).blk t).view.emb (ix2 p k) : S50000x64.Idx) = ix2 (row t p) k := by
  obtain ⟨e0, e1, -⟩ := index_facts t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

/-- Where an entry of point t's block of the second row table sits in the table. -/
theorem emb_edges (t : Fin cfg0.N) (p : Fin 10000) (k : Fin 32) :
    (((cfg0.win 1).blk t).view.emb (ix2 p k) : S50000x32.Idx) = ix2 (row t p) k := by
  obtain ⟨-, -, e0, e1, -⟩ := index_facts t
  funext a; apply Fin.ext
  match a with
  | ⟨0, _⟩ => show win0_1.index t (0 : Fin 2) * 10000 + 1 * p.val = t.val * 10000 + p.val; omega
  | ⟨1, _⟩ => show win0_1.index t (1 : Fin 2) * 32 + 1 * k.val = k.val; omega

/-- The first weight table's block is the whole table at every point. -/
theorem emb_wnodes (t : Fin cfg0.N) (k : Fin 64) (q : Fin 64) :
    (((cfg0.win 2).blk t).view.emb (ix2 k q) : S64x64.Idx) = ix2 k q := by
  obtain ⟨-, -, -, -, e0, e1, -⟩ := index_facts t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

/-- The second weight table's block is the whole table at every point. -/
theorem emb_wedges (t : Fin cfg0.N) (k : Fin 32) (q : Fin 64) :
    (((cfg0.win 3).blk t).view.emb (ix2 k q) : S32x64.Idx) = ix2 k q := by
  obtain ⟨-, -, -, -, -, -, e0, e1, -⟩ := index_facts t
  funext a; apply Fin.ext
  match a with
  | ⟨0, _⟩ => show win0_3.index t (0 : Fin 2) * 32 + 1 * k.val = k.val; omega
  | ⟨1, _⟩ => show win0_3.index t (1 : Fin 2) * 64 + 1 * q.val = q.val; omega

/-- Where an entry of point t's block of the output sits in the output array. -/
theorem emb_out (t : Fin cfg0.N) (p : Fin 10000) (q : Fin 64) :
    (((cfg0.win 4).blk t).view.emb (ix2 p q) : S50000x64.Idx) = ix2 (row t p) q := by
  obtain ⟨-, -, -, -, -, -, -, -, e0, e1⟩ := index_facts t
  funext a; apply Fin.ext
  match a with
  | ⟨0, _⟩ => show win0_4.index t (0 : Fin 2) * 10000 + 1 * p.val = t.val * 10000 + p.val; omega
  | ⟨1, _⟩ => show win0_4.index t (1 : Fin 2) * 64 + 1 * q.val = q.val; omega

/-- `twoProducts` at (n, q), the row and column spelt out. -/
theorem twoProducts_ix2 (A : S50000x64.Idx → EReal) (B : S50000x32.Idx → EReal) (C : S64x64.Idx → EReal)
    (D : S32x64.Idx → EReal) (n : Fin 50000) (q : Fin 64) :
    EdgeMean.twoProducts A B C D (ix2 n q)
      = (∑ k : Fin 64, A (ix2 n k) * C (ix2 k q)) + (∑ k : Fin 32, B (ix2 n k) * D (ix2 k q)) := rfl

/-! ## A block of an array, read at an entry

Each window's block at point t, of ANY array of the window's shape, read at an entry of the block, is the array at the
entry's place. -/

/-- Point t's block of a 50000 × 64 array staged by window 0: entry (p, k) is the array's (10000·t + p, k). -/
theorem read_nodes (A : S50000x64.Idx → EReal) (t : Fin cfg0.N) (p : Fin 10000) (k : Fin 64) :
    ((cfg0.win 0).blk t).view.read (Elt Ideal) A (ix2 p k) = A (ix2 (row t p) k) := by
  show A (((cfg0.win 0).blk t).view.emb (ix2 p k)) = _
  rw [emb_nodes t p k]

/-- Point t's block of a 50000 × 32 array staged by window 1: entry (p, k) is the array's (10000·t + p, k). -/
theorem read_edges (B : S50000x32.Idx → EReal) (t : Fin cfg0.N) (p : Fin 10000) (k : Fin 32) :
    ((cfg0.win 1).blk t).view.read (Elt Ideal) B (ix2 p k) = B (ix2 (row t p) k) := by
  show B (((cfg0.win 1).blk t).view.emb (ix2 p k)) = _
  rw [emb_edges t p k]

/-- Point t's block of a 64 × 64 array staged by window 2 is the array. -/
theorem read_wnodes (C : S64x64.Idx → EReal) (t : Fin cfg0.N) (k : Fin 64) (q : Fin 64) :
    ((cfg0.win 2).blk t).view.read (Elt Ideal) C (ix2 k q) = C (ix2 k q) := by
  show C (((cfg0.win 2).blk t).view.emb (ix2 k q)) = _
  rw [emb_wnodes t k q]

/-- Point t's block of a 32 × 64 array staged by window 3 is the array. -/
theorem read_wedges (D : S32x64.Idx → EReal) (t : Fin cfg0.N) (k : Fin 32) (q : Fin 64) :
    ((cfg0.win 3).blk t).view.read (Elt Ideal) D (ix2 k q) = D (ix2 k q) := by
  show D (((cfg0.win 3).blk t).view.emb (ix2 k q)) = _
  rw [emb_wedges t k q]

/-- Point t's block of a 50000 × 64 array written back by window 4: entry (p, q) is the array's (10000·t + p, q). -/
theorem read_out (G : S50000x64.Idx → EReal) (t : Fin cfg0.N) (p : Fin 10000) (q : Fin 64) :
    ((cfg0.win 4).blk t).view.read (Elt Ideal) G (ix2 p q) = G (ix2 (row t p) q) := by
  show G (((cfg0.win 4).blk t).view.emb (ix2 p q)) = _
  rw [emb_out t p q]

variable (m : (ℓ : Loc nD τ sig) → Buf (Elt Ideal) ℓ)

/-! ## The input blocks at a point, read off the arrays as the region finds them -/

theorem iblk_nodes (c : Dev nD) (t : Fin cfg0.N) (p : Fin 10000) (k : Fin 64) :
    iblk m c 0 t (ix2 p k) = V m c main_v22 (ix2 (row t p) k) := by
  unfold iblk
  exact read_nodes (V m c main_v22) t p k

theorem iblk_edges (c : Dev nD) (t : Fin cfg0.N) (p : Fin 10000) (k : Fin 32) :
    iblk m c 1 t (ix2 p k) = V m c main_v23 (ix2 (row t p) k) := by
  unfold iblk
  exact read_edges (V m c main_v23) t p k

theorem iblk_wnodes (c : Dev nD) (t : Fin cfg0.N) (k : Fin 64) (q : Fin 64) :
    iblk m c 2 t (ix2 k q) = V m c main_v27 (ix2 k q) := by
  unfold iblk
  exact read_wnodes (V m c main_v27) t k q

theorem iblk_wedges (c : Dev nD) (t : Fin cfg0.N) (k : Fin 32) (q : Fin 64) :
    iblk m c 3 t (ix2 k q) = V m c main_v29 (ix2 k q) := by
  unfold iblk
  exact read_wedges (V m c main_v29) t k q

/-- WHAT POINT t WRITES BACK is block t of `twoProducts` of the four arrays as the region finds them. -/
theorem flushed_eq (c : Dev nD) (t : Fin cfg0.N) :
    (dats m 0 c).flushed 4 t = ((cfg0.win 4).blk t).view.read (Elt Ideal)
      (EdgeMean.twoProducts (V m c main_v22) (V m c main_v23) (V m c main_v27) (V m c main_v29)) := by
  show (cfg0.win 4).cut (grid0.coords t) ((dats m 0 c).after 4 t) = _
  rw [after0_4]
  unfold out0_4
  rw [View.canon_unit_zero zeros]
  simp only [View.ld_unit_zero (S := S10000x64) zeros, View.ld_unit_zero (S := S10000x32) zeros,
    View.ld_unit_zero (S := S64x64) zeros, View.ld_unit_zero (S := S32x64) zeros]
  funext j
  obtain ⟨p, q, rfl⟩ : ∃ (p : Fin 10000) (q : Fin 64), j = ix2 p q := ⟨j 0, j 1, eq_ix2 j⟩
  refine (payload_apply (iblk m c 0 t) (iblk m c 1 t) (iblk m c 2 t) (iblk m c 3 t) p q).trans ?_
  refine Eq.trans ?_ (read_out (EdgeMean.twoProducts (V m c main_v22) (V m c main_v23) (V m c main_v27) (V m c main_v29)) t p q).symm
  rw [twoProducts_ix2]
  refine congrArg₂ (· + ·) (Finset.sum_congr rfl fun k _ => ?_) (Finset.sum_congr rfl fun k _ => ?_)
  · rw [iblk_nodes m c t p k, iblk_wnodes m c t k q]
  · rw [iblk_edges m c t p k, iblk_wedges m c t k q]

/-- An index of the output array is in point t's block iff each coordinate is in the block's range on its axis. -/
theorem mem_blk (t : Fin cfg0.N) (i : S50000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v30).slice (win0_4.rect t)).set ↔ _
  rw [View.set_slice_whole, Rect.mem_set_unit]
  exact Iff.rfl

/-- Row r of the output is written back by point r / 10000. -/
theorem cover (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 5 := N_0
  let t : Fin cfg0.N := ⟨(i 0).val / 10000, by rw [hN]; omega⟩
  have ht : t.val = (i 0).val / 10000 := rfl
  refine ⟨t, flush0_4 t, ?_⟩
  obtain ⟨-, -, -, -, -, -, -, -, e0, e1⟩ := index_facts t
  rw [mem_blk]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

/-- THE OUTPUT ARRAY after the run: the two products, added, at every entry. -/
theorem region_value (m : (ℓ : Loc nD τ sig) → Buf (Elt Ideal) ℓ) (c : Dev nD) :
    (Gen.dats m 0 c).arrAt 4 cfg0.N
      = EdgeMean.twoProducts (Gen.V m c main_v22) (Gen.V m c main_v23) (Gen.V m c main_v27) (Gen.V m c main_v29) :=
  (dats m 0 c).arrAt_eq_of_cover 4
    (EdgeMean.twoProducts (V m c main_v22) (V m c main_v23) (V m c main_v27) (V m c main_v29))
    (fun t _ => flushed_eq m c t) cover

end Cert.KernelIdeal.Region

end
-- ==== Proof.KernelHost.lean ====
/-
  The host operations around the region, read back as values.

  Before the region the program gathers one row of node features per edge (`srcRows`), sums those rows per
  destination node (`nodeSums`: a scatter-add into a table of zeros, the destination words as a column, `dstCol`),
  appends a column of ones to the edge features and sums those rows per destination node too (`edgeSums`: 33 columns,
  the last one counting the edges), and cuts the weight matrix into its two column blocks, each transposed. The
  region reads the node sums, the first 32 columns of the edge sums and the two transposed blocks; the operations
  after the region read the region's output, the last column of the edge sums (the counts) and the bias.

  After the region: the output times the reciprocal of the larger of the count and one, row by row, plus the bias
  times the smaller of the count and one (`finish`).
-/
import proofs.«174265_j88227218195146_2_alg».proof.Proof.Gen.KernelIdeal.Frame
import Idealize.ShloMosaic.Lib.StableHlo.Run
import Idealize.ShloMosaic.PureOps.Ideal

noncomputable section

namespace Cert.KernelIdeal.HostVal

open Cert.KernelIdeal Cert.KernelIdeal.Gen Idealize.ShloMosaic Idealize.ShloMosaic.TcCoe Idealize.SL.Sem
open Idealize.ShloMosaic.StableHlo

/-- Each edge's destination word, as a column. -/
def dstCol (x1 : IVec S2x800000 32) : IVec S800000x1 32 :=
  broadcastInDim S800000x1 ![0] bcast_S800000_S800000x1_0 (shapeCast S800000 (extractStridedSlice S1x800000 ![1, 0] x1 slices_S2x800000_S1x800000_1_0) shapeCasts_S1x800000_S800000)

/-- One row of node features per edge: the row of the node table its source word names (a negative word counted from
    the end). -/
def srcRows (x0 : FVec Ideal S50000x64 .f32) (x1 : IVec S2x800000 32) :
    FVec Ideal S800000x64 .f32 :=
  Host.gather gather_S50000x64_S800000x1_S800000x64_1_0_n_n_0_1_164 x0 (broadcastInDim S800000x1 ![0] bcast_S800000_S800000x1_0 (select (cmpi .slt (shapeCast S800000 (extractStridedSlice S1x800000 ![0, 0] x1 slices_S2x800000_S1x800000_0_0) shapeCasts_S1x800000_S800000) (broadcastInDim S800000 ![] bcast_S_S800000 (constantI S_ 32 0#32))) (addi (shapeCast S800000 (extractStridedSlice S1x800000 ![0, 0] x1 slices_S2x800000_S1x800000_0_0) shapeCasts_S1x800000_S800000) (broadcastInDim S800000 ![] bcast_S_S800000 (constantI S_ 32 50000#32))) (shapeCast S800000 (extractStridedSlice S1x800000 ![0, 0] x1 slices_S2x800000_S1x800000_0_0) shapeCasts_S1x800000_S800000)))

/-- The gathered node features summed per destination node. -/
def nodeSums (x0 : FVec Ideal S50000x64 .f32) (x1 : IVec S2x800000 32) :
    FVec Ideal S50000x64 .f32 :=
  Host.scatterAdd scatter_S50000x64_S800000x1_S800000x64_1_0_0_1 (broadcastInDim S50000x64 ![] bcast_S_S50000x64 (constant S_ .f32 0x00000000#32)) (dstCol x1) (srcRows x0 x1)

/-- The edge features with a column of ones appended, summed per destination node. -/
def edgeSums (x1 : IVec S2x800000 32) (x2 : FVec Ideal S800000x32 .f32) :
    FVec Ideal S50000x33 .f32 :=
  Host.scatterAdd scatter_S50000x33_S800000x1_S800000x33_1_0_0_1 (broadcastInDim S50000x33 ![] bcast_S_S50000x33 (constant S_ .f32 0x00000000#32)) (dstCol x1) (concatenate S800000x33 1 [⟨S800000x32, x2⟩, ⟨S800000x1, broadcastInDim S800000x1 ![] bcast_S_S800000x1 (constant S_ .f32 0x3F800000#32)⟩] concatenates_S800000x32_S800000x1_S800000x33_d1)

/-- The operations after the region, as one function of the region's output, the counts and the bias. -/
def finish (raw : FVec Ideal S50000x64 .f32) (cnt : FVec Ideal S50000 .f32)
    (x4 : FVec Ideal S64 .f32) : FVec Ideal S50000x64 .f32 :=
  addf (mulf raw (broadcastInDim S50000x64 ![0, 1] bcast_S50000x1_S50000x64_0_1 (broadcastInDim S50000x1 ![0] bcast_S50000_S50000x1_0 (Host.divf (broadcastInDim S50000 ![] bcast_S_S50000 (constant S_ .f32 0x3F800000#32)) (maximumf cnt (broadcastInDim S50000 ![] bcast_S_S50000 (constant S_ .f32 0x3F800000#32)))))))
    (mulf (broadcastInDim S50000x64 ![0, 1] bcast_S1x64_S50000x64_0_1 (broadcastInDim S1x64 ![1] bcast_S64_S1x64_1 x4)) (broadcastInDim S50000x64 ![0, 1] bcast_S50000x1_S50000x64_0_1 (broadcastInDim S50000x1 ![0] bcast_S50000_S50000x1_0 (minimumf cnt (broadcastInDim S50000 ![] bcast_S_S50000 (constant S_ .f32 0x3F800000#32))))))

variable (m : (ℓ : Loc nD τ sig) → Buf (Elt Ideal) ℓ)

/-- The region finds the node sums in its first operand. -/
theorem V_v22 (c : Dev nD) : V m c main_v22
    = (truncf .bf16 (nodeSums (m ((c : Thread nD τ).loc main_arg0)) (m ((c : Thread nD τ).loc main_arg1))) bitsLt_bf16_f32 : FVec Ideal S50000x64 .bf16) := by
  show StableHlo.after hostOps0 (fun b => m (c, b)) (Proc.devRef .tc main_v22) = _
  after_results_simp <;> rfl

/-- The region finds the first 32 columns of the edge sums in its second operand. -/
theorem V_v23 (c : Dev nD) : V m c main_v23
    = (truncf .bf16 (extractStridedSlice S50000x32 ![0, 0] (edgeSums (m ((c : Thread nD τ).loc main_arg1)) (m ((c : Thread nD τ).loc main_arg2))) slices_S50000x33_S50000x32_0_0) bitsLt_bf16_f32 : FVec Ideal S50000x32 .bf16) := by
  show StableHlo.after hostOps0 (fun b => m (c, b)) (Proc.devRef .tc main_v23) = _
  after_results_simp <;> rfl

/-- The region finds the transposed first column block of the weights in its third operand. -/
theorem V_v27 (c : Dev nD) : V m c main_v27
    = (truncf .bf16 (transpose S64x64 [1, 0] (extractStridedSlice S64x64 ![0, 0] (m ((c : Thread nD τ).loc main_arg3) : FVec Ideal S64x96 .f32) slices_S64x96_S64x64_0_0) transposes_S64x64_S64x64_1_0) bitsLt_bf16_f32 : FVec Ideal S64x64 .bf16) := by
  show StableHlo.after hostOps0 (fun b => m (c, b)) (Proc.devRef .tc main_v27) = _
  after_results_simp <;> rfl

/-- The region finds the transposed second column block of the weights in its fourth operand. -/
theorem V_v29 (c : Dev nD) : V m c main_v29
    = (truncf .bf16 (transpose S32x64 [1, 0] (extractStridedSlice S64x32 ![0, 64] (m ((c : Thread nD τ).loc main_arg3) : FVec Ideal S64x96 .f32) slices_S64x96_S64x32_0_64) transposes_S64x32_S32x64_1_0) bitsLt_bf16_f32 : FVec Ideal S32x64 .bf16) := by
  show StableHlo.after hostOps0 (fun b => m (c, b)) (Proc.devRef .tc main_v29) = _
  after_results_simp <;> rfl

/-- The counts: the last column of the edge sums. -/
theorem V_v21 (c : Dev nD) : V m c main_v21
    = (shapeCast S50000 (extractStridedSlice S50000x1 ![0, 32] (edgeSums (m ((c : Thread nD τ).loc main_arg1)) (m ((c : Thread nD τ).loc main_arg2))) slices_S50000x33_S50000x1_0_32) shapeCasts_S50000x1_S50000 : FVec Ideal S50000 .f32) := by
  show StableHlo.after hostOps0 (fun b => m (c, b)) (Proc.devRef .tc main_v21) = _
  after_results_simp <;> rfl

/-- The program's result: the operations after the region applied to the region's output array, the counts as the
    region's entry left them, and the bias. -/
theorem tail_v45 (c : Dev nD) :
    Pipeline.afterTail₀ cfgs (dats m) 0 (V0 m) [hostOps1] c main_v45
      = finish ((dats m 0 c).arrAt 4 cfg0.N) (V m c main_v21) (m ((c : Thread nD τ).loc main_arg4)) := by
  have e30 : Pipeline.withArrays (cfgs 0).spec c (V0 m c) (fun w => (dats m 0 c).arrAt w (cfgs 0).N) (Proc.devRef .tc main_v30)
      = (dats m 0 c).arrAt 4 cfg0.N :=
    Pipeline.withArrays_arr spec0 launch0.win.arr_inj c _ _ 4
  have e21 : Pipeline.withArrays (cfgs 0).spec c (V0 m c) (fun w => (dats m 0 c).arrAt w (cfgs 0).N) (Proc.devRef .tc main_v21)
      = V m c main_v21 :=
    Pipeline.withArrays_of_ne _ c (V0 m c) _ main_v21 (by exact (by decide : ∀ w, Pipeline.arrRef spec0 w ≠ main_v21))
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  show StableHlo.after hostOps1 _ (Proc.devRef .tc main_v45) = _
  after_results_simp
  rw [e30, e21, e4]
  rfl

end Cert.KernelIdeal.HostVal

end
-- ==== Proof.KernelRead.lean ====
/-
  The kernel's result read at an index.

  Entry (n, o) of the result is the region's output at (n, o) times the reciprocal of the larger of node n's count and
  one, plus the bias at o times the smaller of the count and one. The region's output is two matrix products over the
  node sums and the edge sums; each of those sums, read at an index, is a sum over the edges arriving at n. So the
  result is `EdgeMean.mappedOfSums` of the gathered rows, the edge features, the weights, the bias and the
  destination column.
-/
import proofs.«174265_j88227218195146_2_alg».proof.Proof.KernelHost
import proofs.«174265_j88227218195146_2_alg».proof.Proof.MeanSpec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.KRead

open Cert.KernelIdeal Cert.KernelIdeal.Gen Cert.KernelIdeal.HostVal Idealize.ShloMosaic Idealize.ShloMosaic.ValueIdx

/-! ## Broadcasts read at an index -/

/-- A column spread over the 64 entries of each row: entry (n, o) is the column's entry n. -/
theorem col_to_rows (y : FVec Ideal S50000x1 .f32) (n : Fin 50000) (o : Fin 64) :
    broadcastInDim S50000x64 ![0, 1] bcast_S50000x1_S50000x64_0_1 y (ix2 n o) = y (ix2 n (0 : Fin 1)) :=
  broadcastInDim_apply _ bcast_S50000x1_S50000x64_0_1 y (ix2 n o) (ix2 n (0 : Fin 1)) (fun a => match a with
    | ⟨0, _⟩ => by show n.val = if (50000 : Nat) = 1 then 0 else n.val; rw [if_neg (by decide)]
    | ⟨1, _⟩ => by show 0 = if (1 : Nat) = 1 then 0 else o.val; rw [if_pos rfl])

/-- A vector stood up as a column: entry (n, 0) is the vector's entry n. -/
theorem vec_to_col (y : FVec Ideal S50000 .f32) (n : Fin 50000) :
    broadcastInDim S50000x1 ![0] bcast_S50000_S50000x1_0 y (ix2 n (0 : Fin 1)) = y (ix1 n) :=
  broadcastInDim_apply _ bcast_S50000_S50000x1_0 y (ix2 n (0 : Fin 1)) (ix1 n) (fun a => match a with
    | ⟨0, _⟩ => by show n.val = if (50000 : Nat) = 1 then 0 else n.val; rw [if_neg (by decide)])

/-- The bias laid as one row: entry (0, o) is the bias at o. -/
theorem bias_row (x4 : FVec Ideal S64 .f32) (o : Fin 64) :
    broadcastInDim S1x64 ![1] bcast_S64_S1x64_1 x4 (ix2 (0 : Fin 1) o) = x4 (ix1 o) :=
  broadcastInDim_apply _ bcast_S64_S1x64_1 x4 (ix2 (0 : Fin 1) o) (ix1 o) (fun a => match a with
    | ⟨0, _⟩ => by show o.val = if (64 : Nat) = 1 then 0 else o.val; rw [if_neg (by decide)])

/-- One row repeated for every node: entry (n, o) is the row's entry o. -/
theorem row_to_rows (y : FVec Ideal S1x64 .f32) (n : Fin 50000) (o : Fin 64) :
    broadcastInDim S50000x64 ![0, 1] bcast_S1x64_S50000x64_0_1 y (ix2 n o) = y (ix2 (0 : Fin 1) o) :=
  broadcastInDim_apply _ bcast_S1x64_S50000x64_0_1 y (ix2 n o) (ix2 (0 : Fin 1) o) (fun a => match a with
    | ⟨0, _⟩ => by show 0 = if (1 : Nat) = 1 then 0 else n.val; rw [if_pos rfl]
    | ⟨1, _⟩ => by show o.val = if (64 : Nat) = 1 then 0 else o.val; rw [if_neg (by decide)])

/-- The vector of ones: every entry is one. -/
theorem ones_vec (i : S50000.Idx) :
    broadcastInDim S50000 ![] bcast_S_S50000 (constant (F := Ideal) S_ .f32 0x3F800000#32) i = 1 := by
  rw [broadcastInDim_apply _ bcast_S_S50000 _ i ix0 (fun a => a.elim0), constant_apply]
  exact Ideal.ofBits_one_f32

/-! ## The operations after the region -/

/-- Entry (n, o) after the region: the output times the reciprocal of the larger of the count and one, plus the bias
    times the smaller of the count and one. -/
theorem finish_apply (raw : FVec Ideal S50000x64 .f32) (cnt : FVec Ideal S50000 .f32) (x4 : FVec Ideal S64 .f32)
    (n : Fin 50000) (o : Fin 64) :
    finish raw cnt x4 (ix2 n o)
      = raw (ix2 n o) * Ideal.div 1 (max (cnt (ix1 n)) 1) + x4 (ix1 o) * min (cnt (ix1 n)) 1 := by
  unfold finish
  rw [addf_apply, mulf_apply, mulf_apply, col_to_rows, col_to_rows, vec_to_col, vec_to_col, row_to_rows, bias_row]
  show raw (ix2 n o) * Ideal.div _ _ + x4 (ix1 o) * _ = _
  rw [maximumf_apply, minimumf_apply, ones_vec]

/-! ## The sums per destination node -/

/-- The table of zeros the node sums start from. -/
theorem zeros64 (i : S50000x64.Idx) :
    broadcastInDim S50000x64 ![] bcast_S_S50000x64 (constant (F := Ideal) S_ .f32 0x00000000#32) i = 0 := by
  rw [broadcastInDim_apply _ bcast_S_S50000x64 _ i ix0 (fun a => a.elim0), constant_apply]
  exact Ideal.ofBits_zero_f32

/-- The table of zeros the edge sums start from. -/
theorem zeros33 (i : S50000x33.Idx) :
    broadcastInDim S50000x33 ![] bcast_S_S50000x33 (constant (F := Ideal) S_ .f32 0x00000000#32) i = 0 := by
  rw [broadcastInDim_apply _ bcast_S_S50000x33 _ i ix0 (fun a => a.elim0), constant_apply]
  exact Ideal.ofBits_zero_f32

/-- The column of ones appended to the edge features. -/
theorem ones_col (i : S800000x1.Idx) :
    broadcastInDim S800000x1 ![] bcast_S_S800000x1 (constant (F := Ideal) S_ .f32 0x3F800000#32) i = 1 := by
  rw [broadcastInDim_apply _ bcast_S_S800000x1 _ i ix0 (fun a => a.elim0), constant_apply]
  exact Ideal.ofBits_one_f32

/-- Node n's sum of gathered feature k: over the edges arriving at n. -/
theorem nodeSums_apply (x0 : FVec Ideal S50000x64 .f32) (x1 : IVec S2x800000 32) (n : Fin 50000) (k : Fin 64) :
    nodeSums x0 x1 (ix2 n k) = ∑ e ∈ EdgeMean.arriving (dstCol x1) n, srcRows x0 x1 (ix2 e k) := by
  have h : nodeSums x0 x1 = Ideal.hostScatterAdd scatter_S50000x64_S800000x1_S800000x64_1_0_0_1
      (broadcastInDim S50000x64 ![] bcast_S_S50000x64 (constant (F := Ideal) S_ .f32 0x00000000#32)) (dstCol x1) (srcRows x0 x1) := rfl
  rw [h]
  refine (RowScatter.scatterAdd_rows_apply scatter_S50000x64_S800000x1_S800000x64_1_0_0_1 rfl rfl rfl rfl _ _ _ n k).trans ?_
  rw [zeros64, zero_add]

/-- The edge features with the ones appended: the first 32 columns are the edge features. -/
theorem withOnes_left (x2 : FVec Ideal S800000x32 .f32) (y : FVec Ideal S800000x1 .f32) (e : Fin 800000) (k : Fin 32) :
    concatenate S800000x33 1 [⟨S800000x32, x2⟩, ⟨S800000x1, y⟩] concatenates_S800000x32_S800000x1_S800000x33_d1
        (ix2 e (⟨k.val, by omega⟩ : Fin 33)) = x2 (ix2 e k) :=
  concatenate_pair_apply_left (1 : Fin 2) x2 y concatenates_S800000x32_S800000x1_S800000x33_d1
    (ix2 e (⟨k.val, by omega⟩ : Fin 33)) rfl (ix2 e k) (fun b => match b with
      | ⟨0, _⟩ => rfl
      | ⟨1, _⟩ => rfl)

/-- The edge features with the ones appended: column 32 is the appended column. -/
theorem withOnes_right (x2 : FVec Ideal S800000x32 .f32) (y : FVec Ideal S800000x1 .f32) (e : Fin 800000) :
    concatenate S800000x33 1 [⟨S800000x32, x2⟩, ⟨S800000x1, y⟩] concatenates_S800000x32_S800000x1_S800000x33_d1
        (ix2 e (⟨32, by omega⟩ : Fin 33)) = y (ix2 e (0 : Fin 1)) :=
  concatenate_pair_apply_right (1 : Fin 2) x2 y concatenates_S800000x32_S800000x1_S800000x33_d1
    (ix2 e (⟨32, by omega⟩ : Fin 33)) rfl rfl (ix2 e (0 : Fin 1)) (fun b hb => match b, hb with
      | ⟨0, _⟩, _ => rfl
      | ⟨1, _⟩, hb => absurd rfl hb) rfl

/-- Node n's sum of edge feature k: over the edges arriving at n. -/
theorem edgeSums_apply_feat (x1 : IVec S2x800000 32) (x2 : FVec Ideal S800000x32 .f32) (n : Fin 50000) (k : Fin 32) :
    edgeSums x1 x2 (ix2 n (⟨k.val, by omega⟩ : Fin 33)) = ∑ e ∈ EdgeMean.arriving (dstCol x1) n, x2 (ix2 e k) := by
  have h : edgeSums x1 x2 = Ideal.hostScatterAdd scatter_S50000x33_S800000x1_S800000x33_1_0_0_1
      (broadcastInDim S50000x33 ![] bcast_S_S50000x33 (constant (F := Ideal) S_ .f32 0x00000000#32)) (dstCol x1)
      (concatenate S800000x33 1 [⟨S800000x32, x2⟩, ⟨S800000x1, broadcastInDim S800000x1 ![] bcast_S_S800000x1 (constant (F := Ideal) S_ .f32 0x3F800000#32)⟩] concatenates_S800000x32_S800000x1_S800000x33_d1) := rfl
  rw [h]
  refine (RowScatter.scatterAdd_rows_apply scatter_S50000x33_S800000x1_S800000x33_1_0_0_1 rfl rfl rfl rfl _ _ _ n (⟨k.val, by omega⟩ : Fin 33)).trans ?_
  rw [zeros33, zero_add]
  exact Finset.sum_congr rfl fun e _ => withOnes_left x2 _ e k

/-- Node n's last column of the edge sums: the number of edges arriving at n. -/
theorem edgeSums_apply_count (x1 : IVec S2x800000 32) (x2 : FVec Ideal S800000x32 .f32) (n : Fin 50000) :
    edgeSums x1 x2 (ix2 n (⟨32, by omega⟩ : Fin 33)) = EdgeMean.count (dstCol x1) n := by
  have h : edgeSums x1 x2 = Ideal.hostScatterAdd scatter_S50000x33_S800000x1_S800000x33_1_0_0_1
      (broadcastInDim S50000x33 ![] bcast_S_S50000x33 (constant (F := Ideal) S_ .f32 0x00000000#32)) (dstCol x1)
      (concatenate S800000x33 1 [⟨S800000x32, x2⟩, ⟨S800000x1, broadcastInDim S800000x1 ![] bcast_S_S800000x1 (constant (F := Ideal) S_ .f32 0x3F800000#32)⟩] concatenates_S800000x32_S800000x1_S800000x33_d1) := rfl
  rw [h]
  refine (RowScatter.scatterAdd_rows_apply scatter_S50000x33_S800000x1_S800000x33_1_0_0_1 rfl rfl rfl rfl _ _ _ n (⟨32, by omega⟩ : Fin 33)).trans ?_
  rw [zeros33, zero_add]
  unfold EdgeMean.count
  exact Finset.sum_congr rfl fun e _ => (withOnes_right x2 _ e).trans (ones_col _)

/-! ## What the region and the operations after it read -/

/-- The region's first operand: the node sums. -/
def inA (x0 : FVec Ideal S50000x64 .f32) (x1 : IVec S2x800000 32) : FVec Ideal S50000x64 .bf16 :=
  truncf .bf16 (nodeSums x0 x1) bitsLt_bf16_f32
/-- The region's second operand: the first 32 columns of the edge sums. -/
def inB (x1 : IVec S2x800000 32) (x2 : FVec Ideal S800000x32 .f32) : FVec Ideal S50000x32 .bf16 :=
  truncf .bf16 (extractStridedSlice S50000x32 ![0, 0] (edgeSums x1 x2) slices_S50000x33_S50000x32_0_0) bitsLt_bf16_f32
/-- The region's third operand: the first 64 columns of the weights, transposed. -/
def inC (x3 : FVec Ideal S64x96 .f32) : FVec Ideal S64x64 .bf16 :=
  truncf .bf16 (transpose S64x64 [1, 0] (extractStridedSlice S64x64 ![0, 0] x3 slices_S64x96_S64x64_0_0) transposes_S64x64_S64x64_1_0) bitsLt_bf16_f32
/-- The region's fourth operand: the last 32 columns of the weights, transposed. -/
def inD (x3 : FVec Ideal S64x96 .f32) : FVec Ideal S32x64 .bf16 :=
  truncf .bf16 (transpose S32x64 [1, 0] (extractStridedSlice S64x32 ![0, 64] x3 slices_S64x96_S64x32_0_64) transposes_S64x32_S32x64_1_0) bitsLt_bf16_f32
/-- The counts: the last column of the edge sums, as a vector. -/
def counts (x1 : IVec S2x800000 32) (x2 : FVec Ideal S800000x32 .f32) : FVec Ideal S50000 .f32 :=
  shapeCast S50000 (extractStridedSlice S50000x1 ![0, 32] (edgeSums x1 x2) slices_S50000x33_S50000x1_0_32) shapeCasts_S50000x1_S50000

theorem inA_apply (x0 : FVec Ideal S50000x64 .f32) (x1 : IVec S2x800000 32) (n : Fin 50000) (k : Fin 64) :
    inA x0 x1 (ix2 n k) = ∑ e ∈ EdgeMean.arriving (dstCol x1) n, srcRows x0 x1 (ix2 e k) :=
  nodeSums_apply x0 x1 n k

theorem inB_apply (x1 : IVec S2x800000 32) (x2 : FVec Ideal S800000x32 .f32) (n : Fin 50000) (k : Fin 32) :
    inB x1 x2 (ix2 n k) = ∑ e ∈ EdgeMean.arriving (dstCol x1) n, x2 (ix2 e k) := by
  unfold inB
  rw [truncf_apply, extractStridedSlice_apply ![0, 0] (edgeSums x1 x2) slices_S50000x33_S50000x32_0_0 (ix2 n k)
    (ix2 n (⟨k.val, by omega⟩ : Fin 33)) (fun a => match a with
      | ⟨0, _⟩ => by show n.val = 0 + n.val; omega
      | ⟨1, _⟩ => by show k.val = 0 + k.val; omega)]
  exact edgeSums_apply_feat x1 x2 n k

theorem inC_apply (x3 : FVec Ideal S64x96 .f32) (k : Fin 64) (o : Fin 64) :
    inC x3 (ix2 k o) = x3 (ix2 o (⟨k.val, by omega⟩ : Fin 96)) := by
  unfold inC
  rw [truncf_apply, transpose_apply [1, 0] _ transposes_S64x64_S64x64_1_0 (ix2 k o) (ix2 o k) (fun b => match b with
      | ⟨0, _⟩ => rfl
      | ⟨1, _⟩ => rfl),
    extractStridedSlice_apply ![0, 0] x3 slices_S64x96_S64x64_0_0 (ix2 o k) (ix2 o (⟨k.val, by omega⟩ : Fin 96)) (fun a => match a with
      | ⟨0, _⟩ => by show o.val = 0 + o.val; omega
      | ⟨1, _⟩ => by show k.val = 0 + k.val; omega)]

theorem inD_apply (x3 : FVec Ideal S64x96 .f32) (k : Fin 32) (o : Fin 64) :
    inD x3 (ix2 k o) = x3 (ix2 o (⟨64 + k.val, by omega⟩ : Fin 96)) := by
  unfold inD
  rw [truncf_apply, transpose_apply [1, 0] _ transposes_S64x32_S32x64_1_0 (ix2 k o) (ix2 o k) (fun b => match b with
      | ⟨0, _⟩ => rfl
      | ⟨1, _⟩ => rfl),
    extractStridedSlice_apply ![0, 64] x3 slices_S64x96_S64x32_0_64 (ix2 o k) (ix2 o (⟨64 + k.val, by omega⟩ : Fin 96)) (fun a => match a with
      | ⟨0, _⟩ => by show o.val = 0 + o.val; omega
      | ⟨1, _⟩ => by show 64 + k.val = 64 + k.val; omega)]

theorem counts_apply (x1 : IVec S2x800000 32) (x2 : FVec Ideal S800000x32 .f32) (n : Fin 50000) :
    counts x1 x2 (ix1 n) = EdgeMean.count (dstCol x1) n := by
  unfold counts
  rw [shapeCast_apply _ shapeCasts_S50000x1_S50000 (ix1 n) (ix2 n (0 : Fin 1))
      (by rw [Shape.rowMajor_val_two, Shape.rowMajor_val_one]; show n.val * 1 + 0 = n.val; omega),
    extractStridedSlice_apply ![0, 32] (edgeSums x1 x2) slices_S50000x33_S50000x1_0_32 (ix2 n (0 : Fin 1))
      (ix2 n (⟨32, by omega⟩ : Fin 33)) (fun a => match a with
        | ⟨0, _⟩ => by show n.val = 0 + n.val; omega
        | ⟨1, _⟩ => by show 32 = 32 + 0; omega)]
  exact edgeSums_apply_count x1 x2 n

/-! ## The kernel's result at an index -/

/-- Entry (n, o) of the kernel's result is `mappedOfSums` of the gathered rows, the edge features, the weights, the
    bias and the destination column. -/
theorem kernel_apply (x0 : FVec Ideal S50000x64 .f32) (x1 : IVec S2x800000 32) (x2 : FVec Ideal S800000x32 .f32)
    (x3 : FVec Ideal S64x96 .f32) (x4 : FVec Ideal S64 .f32) (n : Fin 50000) (o : Fin 64) :
    finish (EdgeMean.twoProducts (inA x0 x1) (inB x1 x2) (inC x3) (inD x3)) (counts x1 x2) x4 (ix2 n o)
      = EdgeMean.mappedOfSums (srcRows x0 x1) x2 x3 x4 (dstCol x1) n o := by
  rw [finish_apply, counts_apply]
  unfold EdgeMean.mappedOfSums EdgeMean.twoProducts
  show ((∑ k : Fin 64, inA x0 x1 (ix2 n k) * inC x3 (ix2 k o)) + (∑ k : Fin 32, inB x1 x2 (ix2 n k) * inD x3 (ix2 k o))) * _ + _ = _
  simp only [inA_apply, inB_apply, inC_apply, inD_apply]

end Cert.KernelIdeal.KRead

end
-- ==== Proof.RefRead.lean ====
/-
  The reference's result read at one index.

  Entry `(n, o)` of the reference's output is a quotient. Its numerator is a row scatter-add into a zero table: the
  sum, over the edges `e` whose destination word names node `n`, of entry `(e, o)` of the mapped edge rows — the
  contraction over `k` of edge `e`'s joined features (its gathered node features followed by its edge features) with
  row `o` of the weights, plus the bias entry `o`. Its denominator is the larger of one and a second scatter-add into
  a zero vector, of a one per edge: the number of edges whose destination word names `n`. Read stage by stage, this is
  `EdgeMean.meanOfMapped` over the gathered node features, taken as an array in their own right.
-/
import proofs.«174265_j88227218195146_2_alg».proof.Proof.Gen.ReferenceIdeal.Read
import proofs.«174265_j88227218195146_2_alg».proof.Proof.MeanSpec
import Idealize.ShloMosaic.Lib.Pipeline.Value
import Idealize.ShloMosaic.Lib.ValueIdx
import Idealize.ShloMosaic.Lib.IdealHost

noncomputable section

namespace Cert.ReferenceIdeal.RefRead

open Cert.ReferenceIdeal Cert.ReferenceIdeal.Gen Cert.ReferenceIdeal.Read Idealize.ShloMosaic Idealize.ShloMosaic.ValueIdx

/-- The bias, broadcast twice, read at `(e, o)` is its entry `o`. -/
theorem bias_apply (x4 : (⟨S64, .f32⟩ : BufTy).Contents (Elt Ideal)) (e : Fin 800000) (o : Fin 64) :
    val_main_v15 (F := Ideal) x4 (ix2 e o) = x4 (ix1 o) := by
  rw [val_main_v15_apply, val_main_v14_apply]
  have hi : idx_main_v14 (idx_main_v15 (ix2 e o)) = ix1 o :=
    funext fun a => Fin.ext (by match a with | ⟨0, _⟩ => rfl)
  rw [hi]

/-- The transposed weights read at `(k, o)` are the weights at `(o, k)`. -/
theorem weight_apply (x3 : (⟨S64x96, .f32⟩ : BufTy).Contents (Elt Ideal)) (e : Fin 800000) (o : Fin 64) (k : Fin 96) :
    val_main_v12 (F := Ideal) x3 (ridx_main_v13 (ix2 e o) k) = x3 (ix2 o k) := by
  rw [val_main_v12_apply]
  have hi : idx_main_v12 (ridx_main_v13 (ix2 e o) k) = ix2 o k :=
    funext fun a => Fin.ext (by match a with | ⟨0, _⟩ => rfl | ⟨1, _⟩ => rfl)
  rw [hi]

/-- The joined rows read at `(e, k)`: the gathered node features below column 64, the edge features from there on. -/
theorem joined_apply (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (e : Fin 800000) (o : Fin 64) (k : Fin 96) :
    val_main_v11 (F := Ideal) x0 x1 x2 (lidx_main_v13 (ix2 e o) k)
      = EdgeMean.joined (val_main_v10 (F := Ideal) x0 x1) x2 e k := by
  unfold val_main_v11 EdgeMean.joined
  generalize val_main_v10 (F := Ideal) x0 x1 = y
  by_cases h : k.val < 64
  · rw [dif_pos h]
    exact concatenate_pair_apply_left (1 : Fin S800000x96.rank) y x2 concatenates_S800000x64_S800000x32_S800000x96_d1
      (lidx_main_v13 (ix2 e o) k) rfl (ix2 e (⟨k.val, h⟩ : Fin 64))
      (fun b => match b with | ⟨0, _⟩ => rfl | ⟨1, _⟩ => rfl)
  · rw [dif_neg h]
    exact concatenate_pair_apply_right (1 : Fin S800000x96.rank) y x2 concatenates_S800000x64_S800000x32_S800000x96_d1
      (lidx_main_v13 (ix2 e o) k) rfl rfl (ix2 e (⟨k.val - 64, by omega⟩ : Fin 32))
      (fun b hb => match b, hb with | ⟨0, _⟩, _ => rfl | ⟨1, _⟩, hb => absurd rfl hb)
      (by show (k.val - 64) + 64 = k.val; omega)

/-- The mapped edge rows read at `(e, o)`: the joined features of edge `e` contracted with row `o` of the weights,
    plus the bias entry `o`. -/
theorem mapped_apply (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S64x96, .f32⟩ : BufTy).Contents (Elt Ideal))
    (x4 : (⟨S64, .f32⟩ : BufTy).Contents (Elt Ideal)) (e : Fin 800000) (o : Fin 64) :
    val_main_v16 (F := Ideal) x0 x1 x2 x3 x4 (ix2 e o)
      = (∑ k : Fin 96, EdgeMean.joined (val_main_v10 (F := Ideal) x0 x1) x2 e k * x3 (ix2 o k)) + x4 (ix1 o) := by
  rw [val_main_v16_apply, Ideal.addf_def, val_main_v13_apply, bias_apply]
  congr 1
  refine Finset.sum_congr rfl fun k _ => ?_
  rw [joined_apply, weight_apply]

/-- The numerator at `(n, o)`: the sum of the mapped rows' entries `o` over the edges arriving at `n`. -/
theorem num_apply (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S64x96, .f32⟩ : BufTy).Contents (Elt Ideal))
    (x4 : (⟨S64, .f32⟩ : BufTy).Contents (Elt Ideal)) (n : Fin 50000) (o : Fin 64) :
    val_main_v19 (F := Ideal) x0 x1 x2 x3 x4 (ix2 n o)
      = ∑ e ∈ EdgeMean.arriving (val_main_v18 (F := Ideal) x1) n,
          ((∑ k : Fin 96, EdgeMean.joined (val_main_v10 (F := Ideal) x0 x1) x2 e k * x3 (ix2 o k)) + x4 (ix1 o)) := by
  -- at the exact instance the host's scatter-add is the exact one
  have h : val_main_v19 (F := Ideal) x0 x1 x2 x3 x4
      = Ideal.hostScatterAdd scatter_S50000x64_S800000x1_S800000x64_1_0_0_1 (val_main_v17 (F := Ideal))
          (val_main_v18 (F := Ideal) x1) (val_main_v16 (F := Ideal) x0 x1 x2 x3 x4) := rfl
  rw [h]
  refine (RowScatter.scatterAdd_rows_apply scatter_S50000x64_S800000x1_S800000x64_1_0_0_1 rfl rfl rfl rfl _ _ _ n o).trans ?_
  -- the table scattered into is zero
  rw [val_main_v17_apply, val_main_cst_apply, Ideal.ofBits_def, Ideal.ofBits_zero_f32, zero_add]
  exact Finset.sum_congr rfl fun e _ => mapped_apply x0 x1 x2 x3 x4 e o

/-- The scattered ones at `n`: the number of edges arriving at `n`. -/
theorem count_apply (x1 : (⟨S2x800000, .i32⟩ : BufTy).Contents (Elt Ideal)) (n : Fin 50000) :
    val_main_v23 (F := Ideal) x1 (ix1 n) = EdgeMean.count (val_main_v18 (F := Ideal) x1) n := by
  -- at the exact instance the host's scatter-add is the exact one; the two broadcasts of the destination words are one term
  have h : val_main_v23 (F := Ideal) x1
      = Ideal.hostScatterAdd scatter_S50000_S800000x1_S800000_n_0_0_1 (val_main_v21 (F := Ideal))
          (val_main_v18 (F := Ideal) x1) (val_main_v20 (F := Ideal)) := rfl
  rw [h]
  refine (RowScatter.scatterAdd_vec_apply scatter_S50000_S800000x1_S800000_n_0_0_1 rfl rfl rfl rfl _ _ _ n).trans ?_
  -- the vector scattered into is zero, every update a one
  rw [val_main_v21_apply, val_main_cst_2_apply, Ideal.ofBits_def, Ideal.ofBits_zero_f32, zero_add]
  unfold EdgeMean.count
  refine Finset.sum_congr rfl fun e _ => ?_
  rw [val_main_v20_apply, val_main_cst_1_apply, Ideal.ofBits_def, Ideal.ofBits_one_f32]

/-- The denominator at `(n, o)`: the larger of the number of edges arriving at `n` and one. -/
theorem den_apply (x1 : (⟨S2x800000, .i32⟩ : BufTy).Contents (Elt Ideal)) (n : Fin 50000) (o : Fin 64) :
    val_main_v27 (F := Ideal) x1 (ix2 n o) = max (EdgeMean.count (val_main_v18 (F := Ideal) x1) n) 1 := by
  rw [val_main_v27_apply, val_main_v26_apply]
  have hi : idx_main_v26 (idx_main_v27 (ix2 n o)) = ix1 n :=
    funext fun a => Fin.ext (by match a with | ⟨0, _⟩ => rfl)
  rw [hi, val_main_v25_apply, Ideal.maximumf_def, count_apply, val_main_v24_apply, val_main_cst_3_apply,
    Ideal.ofBits_def, Ideal.ofBits_one_f32]

/-- The reference's result at `(n, o)` is the mean, over the edges arriving at `n`, of the mapped joined features. -/
theorem ref_apply (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S64x96, .f32⟩ : BufTy).Contents (Elt Ideal))
    (x4 : (⟨S64, .f32⟩ : BufTy).Contents (Elt Ideal)) (n : Fin 50000) (o : Fin 64) :
    Read.val_main_v28 (F := Ideal) x0 x1 x2 x3 x4 (ix2 n o)
      = EdgeMean.meanOfMapped (Read.val_main_v10 (F := Ideal) x0 x1) x2 x3 x4 (Read.val_main_v18 (F := Ideal) x1) n o := by
  rw [val_main_v28_apply, Ideal.hostDivf_def, num_apply, den_apply]
  rfl

end Cert.ReferenceIdeal.RefRead

end
-- ==== Proof.MeanAlgebra.lean ====
/-
  The two arrangements of the edge mean agree over finite entries.

  Every entry is the image of a real number, so both arrangements are images of real expressions and the claim is an
  identity in the reals. With `T` the edges arriving at the node and `c = |T|`:

  * the sum over the 96 joined features splits into the 64 node features and the 32 edge features;
  * the linear map commutes with the sum over `T` (exchange the two sums, pull the weight out);
  * the sum of `b` over `T` is `c · b`;
  * for a natural number `c`, either `c = 0` (no edge: every sum is empty and both sides vanish) or `1 ≤ c`
    (`max c 1 = c`, `min c 1 = 1`, and `c · b / c = b`).
-/
import proofs.«174265_j88227218195146_2_alg».proof.Proof.MeanSpec
import Mathlib.Algebra.BigOperators.Fin
import Mathlib.Tactic.FieldSimp
import Mathlib.Tactic.Ring
import Mathlib.Tactic.Linarith

noncomputable section

namespace EdgeMean

open Idealize.ShloMosaic Idealize.ShloMosaic.ValueIdx

/-- The image of a finite sum of reals is the sum of the images. -/
private lemma coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The image of the larger of two reals is the larger of the images. -/
private lemma coe_max (a b : ℝ) : ((max a b : ℝ) : EReal) = max (a : EReal) (b : EReal) :=
  EReal.coe_strictMono.monotone.map_max

/-- The image of the smaller of two reals is the smaller of the images. -/
private lemma coe_min (a b : ℝ) : ((min a b : ℝ) : EReal) = min (a : EReal) (b : EReal) :=
  EReal.coe_strictMono.monotone.map_min

/-- A sum over 96 positions is the sum over the first 64 plus the sum over the last 32. -/
private lemma sum_fin96 (g : Fin 96 → ℝ) :
    ∑ k : Fin 96, g k
      = (∑ k : Fin 64, g (⟨k.val, by omega⟩ : Fin 96)) + ∑ k : Fin 32, g (⟨64 + k.val, by omega⟩ : Fin 96) :=
  Fin.sum_univ_add (a := 64) (b := 32) g

/-- The identity in the reals: mapping the sums, scaling and adding `B · min c 1` is the mean of the mapped rows. -/
private lemma real_identity (T : Finset (Fin 800000)) (X : Fin 800000 → Fin 64 → ℝ) (F : Fin 800000 → Fin 32 → ℝ)
    (Wl : Fin 64 → ℝ) (Wr : Fin 32 → ℝ) (B : ℝ) :
    ((∑ k : Fin 64, (∑ e ∈ T, X e k) * Wl k) + (∑ k : Fin 32, (∑ e ∈ T, F e k) * Wr k))
        * (1 / max (T.card : ℝ) 1) + B * min (T.card : ℝ) 1
      = (∑ e ∈ T, (((∑ k : Fin 64, X e k * Wl k) + (∑ k : Fin 32, F e k * Wr k)) + B))
        * (1 / max (T.card : ℝ) 1) := by
  have h1 : ∑ k : Fin 64, (∑ e ∈ T, X e k) * Wl k = ∑ e ∈ T, ∑ k : Fin 64, X e k * Wl k := by
    simp_rw [Finset.sum_mul]; exact Finset.sum_comm
  have h2 : ∑ k : Fin 32, (∑ e ∈ T, F e k) * Wr k = ∑ e ∈ T, ∑ k : Fin 32, F e k * Wr k := by
    simp_rw [Finset.sum_mul]; exact Finset.sum_comm
  rw [h1, h2, Finset.sum_add_distrib, Finset.sum_add_distrib, Finset.sum_const, nsmul_eq_mul]
  rcases Nat.eq_zero_or_pos T.card with h0 | hpos
  · have hT : T = ∅ := Finset.card_eq_zero.mp h0
    subst hT
    simp
  · have hc : (1 : ℝ) ≤ (T.card : ℝ) := by exact_mod_cast hpos
    have hc0 : (T.card : ℝ) ≠ 0 := by linarith
    rw [max_eq_left hc, min_eq_right hc]
    field_simp

/-- An edge's joined feature over images of reals is the image of the real joined feature. -/
private lemma joined_coe (xr : (⟨2, ![800000, 64]⟩ : Shape).Idx → ℝ) (fr : (⟨2, ![800000, 32]⟩ : Shape).Idx → ℝ)
    (e : Fin 800000) (k : Fin 96) :
    joined (fun i => (xr i : EReal)) (fun i => (fr i : EReal)) e k
      = ((if h : k.val < 64 then xr (ix2 e (⟨k.val, h⟩ : Fin 64))
          else fr (ix2 e (⟨k.val - 64, by omega⟩ : Fin 32)) : ℝ) : EReal) := by
  unfold joined
  split_ifs <;> rfl

/-- The number of arriving edges, as a sum of ones, is the image of the cardinality. -/
private lemma count_coe (dst : IVec (⟨2, ![800000, 1]⟩ : Shape) 32) (n : Fin 50000) :
    count dst n = (((arriving dst n).card : ℝ) : EReal) := by
  unfold count
  rw [← EReal.coe_one, ← coe_sum, Finset.sum_const, nsmul_eq_mul, mul_one]

/-- The claim over an abstract set `T` of arriving edges and images of real entries. -/
private lemma core (T : Finset (Fin 800000)) (xr : (⟨2, ![800000, 64]⟩ : Shape).Idx → ℝ)
    (fr : (⟨2, ![800000, 32]⟩ : Shape).Idx → ℝ) (wr : (⟨2, ![64, 96]⟩ : Shape).Idx → ℝ)
    (br : (⟨1, ![64]⟩ : Shape).Idx → ℝ) (o : Fin 64) :
    ((∑ k : Fin 64, (∑ e ∈ T, (xr (ix2 e k) : EReal)) * (wr (ix2 o (⟨k.val, by omega⟩ : Fin 96)) : EReal))
        + (∑ k : Fin 32, (∑ e ∈ T, (fr (ix2 e k) : EReal)) * (wr (ix2 o (⟨64 + k.val, by omega⟩ : Fin 96)) : EReal)))
      * Ideal.div 1 (max (((T.card : ℝ)) : EReal) 1)
      + (br (ix1 o) : EReal) * min (((T.card : ℝ)) : EReal) 1
    = Ideal.div (∑ e ∈ T, ((∑ k : Fin 96, joined (fun i => (xr i : EReal)) (fun i => (fr i : EReal)) e k
          * (wr (ix2 o k) : EReal)) + (br (ix1 o) : EReal)))
        (max (((T.card : ℝ)) : EReal) 1) := by
  -- the divisor is the image of a nonzero real
  have hmax : max (((T.card : ℝ)) : EReal) 1 = ((max (T.card : ℝ) 1 : ℝ) : EReal) := by
    rw [coe_max, EReal.coe_one]
  have hmin : min (((T.card : ℝ)) : EReal) 1 = ((min (T.card : ℝ) 1 : ℝ) : EReal) := by
    rw [coe_min, EReal.coe_one]
  have hne : max (T.card : ℝ) 1 ≠ 0 := by
    have : (1 : ℝ) ≤ max (T.card : ℝ) 1 := le_max_right _ _
    linarith
  -- each edge's mapped row, split into its node part and its edge part
  have hrow : ∀ e : Fin 800000,
      (∑ k : Fin 96, (if h : k.val < 64 then xr (ix2 e (⟨k.val, h⟩ : Fin 64))
          else fr (ix2 e (⟨k.val - 64, by omega⟩ : Fin 32))) * wr (ix2 o k))
        = (∑ k : Fin 64, xr (ix2 e k) * wr (ix2 o (⟨k.val, by omega⟩ : Fin 96)))
          + ∑ k : Fin 32, fr (ix2 e k) * wr (ix2 o (⟨64 + k.val, by omega⟩ : Fin 96)) := by
    intro e
    rw [sum_fin96]
    refine congrArg₂ (· + ·) (Finset.sum_congr rfl fun k _ => ?_) (Finset.sum_congr rfl fun k _ => ?_)
    · rw [dif_pos k.isLt]
    · have hk : ¬ (64 + k.val < 64) := by omega
      rw [dif_neg hk]
      have hidx : (⟨64 + k.val - 64, by omega⟩ : Fin 32) = k := Fin.ext (Nat.add_sub_cancel_left 64 k.val)
      simp only [hidx]
  rw [hmax, hmin, Ideal.div_coe hne, Ideal.div_coe hne]
  simp only [joined_coe]
  rw [← EReal.coe_one]
  simp only [← coe_sum, ← EReal.coe_mul, ← EReal.coe_add]
  rw [EReal.coe_eq_coe_iff]
  -- now an identity in the reals
  simp only [hrow]
  rw [one_mul]
  exact real_identity T (fun e k => xr (ix2 e k)) (fun e k => fr (ix2 e k))
    (fun k => wr (ix2 o (⟨k.val, by omega⟩ : Fin 96))) (fun k => wr (ix2 o (⟨64 + k.val, by omega⟩ : Fin 96))) (br (ix1 o))

theorem mappedOfSums_eq_meanOfMapped (xs : (⟨2, ![800000, 64]⟩ : Shape).Idx → EReal) (ef : (⟨2, ![800000, 32]⟩ : Shape).Idx → EReal)
    (w : (⟨2, ![64, 96]⟩ : Shape).Idx → EReal) (b : (⟨1, ![64]⟩ : Shape).Idx → EReal) (dst : IVec (⟨2, ![800000, 1]⟩ : Shape) 32)
    (hxs : ∀ i, ∃ r : ℝ, xs i = (r : EReal)) (hef : ∀ i, ∃ r : ℝ, ef i = (r : EReal))
    (hw : ∀ i, ∃ r : ℝ, w i = (r : EReal)) (hb : ∀ i, ∃ r : ℝ, b i = (r : EReal)) (n : Fin 50000) (o : Fin 64) :
    mappedOfSums xs ef w b dst n o = meanOfMapped xs ef w b dst n o := by
  choose xr hxr using hxs
  choose fr hfr using hef
  choose wr hwr using hw
  choose br hbr using hb
  obtain rfl : xs = fun i => (xr i : EReal) := funext hxr
  obtain rfl : ef = fun i => (fr i : EReal) := funext hfr
  obtain rfl : w = fun i => (wr i : EReal) := funext hwr
  obtain rfl : b = fun i => (br i : EReal) := funext hbr
  unfold mappedOfSums meanOfMapped
  rw [count_coe]
  exact core (arriving dst n) xr fr wr br o

end EdgeMean

end
-- ==== Proof.FiniteInputs.lean ====
/-
  Finiteness of the float inputs, read off the precondition.

  The precondition is the conjunction, over the four float arrays, of "every entry's absolute value is below +∞"
  (the pattern `0x7F800000` of `f32` denotes `⊤`). Each conjunct is a reduction by `and`, from 1, of the array of
  comparisons; the reduction being 1 says every comparison is 1. Over the extended reals `max x (-x) < ⊤` excludes
  `x = ⊤` and `x = ⊥` (`-⊥ = ⊤`), so `x` is the image of a real.
-/
import proofs.«174265_j88227218195146_2_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

/-- The rank-0 shape has one index. -/
instance : Subsingleton S_.Idx := ⟨fun _ _ => funext fun d => d.elim0⟩

/-- An extended real whose absolute value `max x (-x)` compares below the `f32` pattern of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- One conjunct: if the `and` over all entries of `|x| < +∞` is 1, every entry of `x` is a real. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := fun i =>
  real_of_abs_lt_inf (x i) (Host.reduce_andi_all _ _ hr hu _ h i)

theorem finite_of_pre [Cert.Pre_finite_inputs.Facts]
    (x0 : FVec Ideal S50000x64 .f32) (x1 : IVec S2x800000 32) (x2 : FVec Ideal S800000x32 .f32)
    (x3 : FVec Ideal S64x96 .f32) (x4 : FVec Ideal S64 .f32)
    (h : Cert.Pre_finite_inputs.fn (F := Ideal) x0 x1 x2 x3 x4 = fun _ => 1#1) :
    (∀ i, ∃ r : ℝ, x0 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [fn, fn_part1, andi] at h0
  obtain ⟨h012, h4⟩ := IntOp.andi_eq_one.1 h0
  obtain ⟨h01, h3⟩ := IntOp.andi_eq_one.1 h012
  obtain ⟨h0', h2⟩ := IntOp.andi_eq_one.1 h01
  exact ⟨all_real x0 _ _ _ h0', all_real x2 _ _ _ h2, all_real x3 _ _ _ h3, all_real x4 _ _ _ h4⟩

end Cert.FiniteInputs

end
-- ==== Proof.Bridge.lean ====
/-
  The two programs' results are one array.

  The kernel's run ends with its result buffer at the operations after the region applied to the region's output
  (two matrix products over the per-node sums), the counts and the bias; the reference's run ends with its result at
  the mean, over the edges arriving at a node, of the mapped joined features. Read at an index, the first is
  `EdgeMean.mappedOfSums` and the second `EdgeMean.meanOfMapped` of the same gathered rows, edge features, weights,
  bias and destination column; over finite inputs these agree, because the linear map commutes with the sum over
  the arriving edges and, for a count c, c / max c 1 = min c 1.
-/
import proofs.«174265_j88227218195146_2_alg».proof.Proof.Gen.ReferenceIdeal.Run
import proofs.«174265_j88227218195146_2_alg».proof.Proof.RegionValue
import proofs.«174265_j88227218195146_2_alg».proof.Proof.KernelRead
import proofs.«174265_j88227218195146_2_alg».proof.Proof.RefRead
import proofs.«174265_j88227218195146_2_alg».proof.Proof.MeanAlgebra
import proofs.«174265_j88227218195146_2_alg».proof.Proof.FiniteInputs
import proofs.«174265_j88227218195146_2_alg».proof.Proof.Gen.Pre_finite_inputs

noncomputable section

namespace Cert.Bridge

open Idealize.ShloMosaic Idealize.ShloMosaic.TcCoe Idealize.SL.Sem Idealize.ShloMosaic.ValueIdx
open Cert.KernelIdeal Cert.KernelIdeal.Gen Cert.KernelIdeal.HostVal Cert.KernelIdeal.KRead

/-- The kernel's result as one function of the five argument arrays. -/
def kernelOut (x0 : FVec Ideal S50000x64 .f32) (x1 : IVec S2x800000 32) (x2 : FVec Ideal S800000x32 .f32)
    (x3 : FVec Ideal S64x96 .f32) (x4 : FVec Ideal S64 .f32) : FVec Ideal S50000x64 .f32 :=
  finish (EdgeMean.twoProducts (inA x0 x1) (inB x1 x2) (inC x3) (inD x3)) (counts x1 x2) x4

variable (m : (ℓ : Loc nD τ sig) → Buf (Elt Ideal) ℓ) (ρ : Dev nD → PrngReg)

/-- What the operations after the region leave in the result buffer, from the launch contents of the arguments. -/
theorem tail_eq (c : Dev nD) :
    Pipeline.afterTail₀ cfgs (dats m) 0 (V0 m) [hostOps1] c main_v45
      = kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_v45, Cert.KernelIdeal.Region.region_value, V_v22, V_v23, V_v27, V_v29, V_v21]
  rfl

/-- Every weakly fair execution of the kernel's program terminates with the result buffer at `kernelOut` of the
    arguments and the arguments unchanged. -/
theorem kernel_run : θ_run defs (onTc (τ := τ) (main (F := Ideal))) ⟨m, fun _ => 0, ρ⟩ (fun r => ∀ c : Dev nD,
      r.2.mem ((c.tc : Thread nD τ).loc main_v45)
        = kernelOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v45 (Pipeline.mem_restRefs_of main_v45 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- Over finite float inputs the reference's result array is the kernel's: index by index the mean of the mapped rows
    is the map of the summed rows, scaled by the reciprocal of the count, plus the bias where an edge arrives. -/
theorem results_eq (x0 : FVec Ideal S50000x64 .f32) (x1 : IVec S2x800000 32) (x2 : FVec Ideal S800000x32 .f32)
    (x3 : FVec Ideal S64x96 .f32) (x4 : FVec Ideal S64 .f32)
    (h : Cert.Pre_finite_inputs.fn (F := Ideal) x0 x1 x2 x3 x4 = fun _ => 1#1) :
    Cert.ReferenceIdeal.Read.val_main_v28 (F := Ideal) x0 x1 x2 x3 x4 = kernelOut x0 x1 x2 x3 x4 := by
  obtain ⟨h0, h2, h3, h4⟩ := Cert.FiniteInputs.finite_of_pre x0 x1 x2 x3 x4 h
  have hsrc : Cert.ReferenceIdeal.Read.val_main_v10 (F := Ideal) x0 x1 = srcRows x0 x1 := rfl
  have hdst : Cert.ReferenceIdeal.Read.val_main_v18 (F := Ideal) x1 = dstCol x1 := rfl
  have hxs : ∀ j, ∃ r : ℝ, srcRows x0 x1 j = (r : EReal) := fun j => h0 _
  funext i
  obtain ⟨n, o, rfl⟩ : ∃ (n : Fin 50000) (o : Fin 64), i = ix2 n o := ⟨i 0, i 1, eq_ix2 i⟩
  rw [Cert.ReferenceIdeal.RefRead.ref_apply, hsrc, hdst]
  unfold kernelOut
  rw [kernel_apply]
  exact (EdgeMean.mappedOfSums_eq_meanOfMapped (srcRows x0 x1) x2 x3 x4 (dstCol x1) hxs h2 h3 h4 n o).symm

end Cert.Bridge

end
-- ==== Proof.lean ====
/-
  The certificate's five claims.

  The kernel sums, per destination node, the gathered node features and the edge features of the arriving edges
  (with a column of ones that counts them), maps the two sums through the two column blocks of the weights on the
  matrix unit, and finishes on the host: times the reciprocal of the larger of the count and one, plus the bias
  times the smaller of the count and one. The reference maps every edge's joined features first, adds the bias,
  sums the mapped rows per destination node and divides by the larger of the count and one. With every float a
  real number the two agree at every index: the map is linear, so it commutes with the sum over the arriving edges;
  the bias summed over c edges is c times the bias; and c / max c 1 = min c 1 for a count c. Finiteness of the inputs
  is what makes the distributive law hold, and it is the precondition.

  The three frames are the programs' runs with their results dropped; the idealization rewrote nothing, so there is
  nothing to preserve.
-/
import proofs.«174265_j88227218195146_2_alg».proof.Defs
import proofs.«174265_j88227218195146_2_alg».proof.Proof.Gen.Kernel
import proofs.«174265_j88227218195146_2_alg».proof.Proof.Gen.Kernel.Skeleton
import proofs.«174265_j88227218195146_2_alg».proof.Proof.Gen.Kernel.Launch
import proofs.«174265_j88227218195146_2_alg».proof.Proof.Gen.Kernel.Points
import proofs.«174265_j88227218195146_2_alg».proof.Proof.Gen.Kernel.Frame
import proofs.«174265_j88227218195146_2_alg».proof.Proof.Gen.KernelIdeal
import proofs.«174265_j88227218195146_2_alg».proof.Proof.Gen.KernelIdeal.Skeleton
import proofs.«174265_j88227218195146_2_alg».proof.Proof.Gen.KernelIdeal.Launch
import proofs.«174265_j88227218195146_2_alg».proof.Proof.Gen.KernelIdeal.Points
import proofs.«174265_j88227218195146_2_alg».proof.Proof.Gen.KernelIdeal.Frame
import proofs.«174265_j88227218195146_2_alg».proof.Proof.Gen.ReferenceIdeal
import proofs.«174265_j88227218195146_2_alg».proof.Proof.Gen.Pre_finite_inputs
import proofs.«174265_j88227218195146_2_alg».proof.Proof.Gen.ReferenceIdeal.Run
import proofs.«174265_j88227218195146_2_alg».proof.Proof.Gen.ReferenceIdeal.Read
import proofs.«174265_j88227218195146_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's program ends with its result at `kernelOut` of the
    arguments and the reference's at the mean of the mapped rows of the same arguments: one array, the inputs being
    finite. -/
theorem algebraic : Cert.algebraic_KernelIdeal_ReferenceIdeal := by
  intro m ρ m' ρ' hpre hagree
  refine ⟨fun c => Cert.Bridge.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v28_eq]
  exact Cert.Bridge.results_eq _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
